-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S2 : Shape := ⟨1, ![2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S16777216x2 .f32) (main_arg1 : FVec F S2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S16777216x2 : Shape := ⟨2, ![16777216, 2]⟩
abbrev S2 : Shape := ⟨1, ![2]⟩
abbrev S16777216 : Shape := ⟨1, ![16777216]⟩
abbrev S1048576x2 : Shape := ⟨2, ![1048576, 2]⟩
abbrev S1048576 : Shape := ⟨1, ![1048576]⟩
abbrev S1x2 : Shape := ⟨2, ![1, 2]⟩

abbrev nBuf : Space → Nat
  | .hbm => 3
  | .vmem => 5
  | .smem => 0
  | _ => 0

abbrev bufTy : (tb : Table) → Fin (tcTables nBuf tb) → BufTy
  | .hbm, ⟨0, _⟩ => ⟨S16777216x2, .f32⟩
  | .hbm, ⟨1, _⟩ => ⟨S2, .f32⟩
  | .hbm, ⟨2, _⟩ => ⟨S16777216, .f32⟩
  | .local _ .vmem, ⟨0, _⟩ => ⟨S1048576x2, .f32⟩
  | .local _ .vmem, ⟨1, _⟩ => ⟨S1048576x2, .f32⟩
  | .local _ .vmem, ⟨2, _⟩ => ⟨S2, .f32⟩
  | .local _ .vmem, ⟨3, _⟩ => ⟨S1048576, .f32⟩
  | .local _ .vmem, ⟨4, _⟩ => ⟨S1048576, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1048576x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1048576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1048576x2_S1048576x2_0_0 : ∀ a, (![0, 0] : Fin 2 → Nat) a + S1048576x2.size a ≤ S1048576x2.size a
  h_S1048576x2 : 0 < S1048576x2.numel
  inb_S2_S2_0 : ∀ a, (![0] : Fin 1 → Nat) a + S2.size a ≤ S2.size a
  h_S2 : 0 < S2.numel
  shapeCasts_S2_S1x2 : S2.ShapeCasts S1x2
  broadcasts_S1x2_S1048576x2 : S1x2.Broadcasts S1048576x2
  reduces_S1048576x2_S1048576 : S1048576x2.Reduces [1] S1048576
  inb_S1048576_S1048576_0 : ∀ a, (![0] : Fin 1 → Nat) a + S1048576.size a ≤ S1048576.size a
  h_S1048576 : 0 < S1048576.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1048576x2.size a ≤ S16777216x2.size a
  hwx0_0 : ∀ i : grid0.Coords, EltTy.bits .f32 = 32 ∨ (Rect.block (s := S16777216x2) S1048576x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2.size a ≤ S2.size a
  hwx0_1 : ∀ i : grid0.Coords, EltTy.bits .f32 = 32 ∨ (Rect.block (s := S2) S2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1048576.size a ≤ S16777216.size a
  hwx0_2 : ∀ i : grid0.Coords, EltTy.bits .f32 = 32 ∨ (Rect.block (s := S16777216) S1048576.size (cc0_transform_2 i) (hinb0_2 i)).WholeWords (EltTy.packing .f32)

variable [Facts₀]

abbrev win0_0 : Pipeline.Window sig grid0 :=
  Pipeline.Window.ofSpec (Memref.whole main_arg0) S1048576x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1048576.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S2 : Shape := ⟨1, ![2]⟩
abbrev S1x2 : Shape := ⟨2, ![1, 2]⟩
abbrev S_ : Shape := ⟨0, ![]⟩
abbrev S16777216 : Shape := ⟨1, ![16777216]⟩

abbrev nBuf : Space → Nat
  | .hbm => 18
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S2, .f32⟩
  | .hbm, ⟨2, _⟩ => ⟨S1x2, .f32⟩
  | .hbm, ⟨3, _⟩ => ⟨S16777216x2, .f32⟩
  | .hbm, ⟨4, _⟩ => ⟨S16777216x2, .f32⟩
  | .hbm, ⟨5, _⟩ => ⟨S16777216x2, .f32⟩
  | .hbm, ⟨6, _⟩ => ⟨S_, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16777216x2_0_1 : S1x2.BroadcastsInDim S16777216x2 (![0, 1] : Fin 2 → Fin S16777216x2.rank)
  reducesTo_S16777216x2_S16777216_d1 : S16777216x2.ReducesTo [1] S16777216
  h_S_ : 0 < S_.numel
  bcast_S_S16777216 : S_.BroadcastsInDim S16777216 (![] : Fin 0 → Fin S16777216.rank)

variable [Facts₀]

class Facts : Prop extends Facts₀ where

variable [Facts]
-- ==== Proof.Density.lean ====
/-
  The function both programs compute, stated once over plain indices.

  A point of the plane is a row `(row 0, row 1)`; `mu` is the centre.  Its unnormalised isotropic Gaussian
  density is
      one · exp (negHalf · (invVar · ∑ₖ (row k − mu k)²)),
  with the three float words kept as the extended reals they denote (the same words occur on both sides, so
  their values are never needed).  The array-level function applies this to every row of a
  `16777216 × 2` array.  Everything is over the extended reals: the sum of two squares, two products, an
  exponential and a last product, with no law of arithmetic used anywhere — the two programs perform the same
  operations in the same order, and differ only in how the rows are tiled and how the sum over the two
  coordinates is spelt.
-/
import Idealize.ShloMosaic.PureOps.Ideal
import Idealize.ShloMosaic.Lib.ValueIdx

noncomputable section

namespace Cert.Density

open Idealize.ShloMosaic Idealize.ShloMosaic.ValueIdx

/-- The density of one point: `one · exp (negHalf · (invVar · ‖row − mu‖²))`, the squared distance the sum over
    the two coordinates of the squared differences. -/
def ofRow (row mu : Fin 2 → EReal) : EReal :=
  Ideal.ofBits .f32 0x3F800000#32 * Ideal.exp (Ideal.ofBits .f32 0xBF000000#32 *
    (Ideal.ofBits .f32 0x3F0A3D71#32 * ∑ k : Fin 2, (row k - mu k) * (row k - mu k)))

/-- The density of every row of a `16777216 × 2` array of points about one centre: entry `i` is `ofRow` of row `i`. -/
def ofRows (x : (⟨2, ![16777216, 2]⟩ : Shape).Idx → EReal) (mu : (⟨1, ![2]⟩ : Shape).Idx → EReal) :
    (⟨1, ![16777216]⟩ : Shape).Idx → EReal :=
  fun i => ofRow (fun k => x (ix2 (n0 := 16777216) (n1 := 2) (i 0) k)) (fun k => mu (ix1 k))

/-- At the row numbered `r`. -/
theorem ofRows_apply (x : (⟨2, ![16777216, 2]⟩ : Shape).Idx → EReal) (mu : (⟨1, ![2]⟩ : Shape).Idx → EReal)
    (r : Fin 16777216) : ofRows x mu (ix1 r) = ofRow (fun k => x (ix2 r k)) (fun k => mu (ix1 k)) := rfl

end Cert.Density

end
-- ==== Proof.BlockDensity.lean ====
/-
  What the kernel body leaves in its output block.

  At a grid point the body loads a block of `1048576` rows of points and the centre, and stores one value per
  row.  Row `r` of the stored block is
      one · exp (negHalf · (invVar · ∑ₖ (P(r,k) − c(k))²)),
  that is `Density.ofRow` of row `r` of the loaded block: the centre reaches position `(r,k)` through a cast
  [2] → [1,2] and a broadcast of that one row over all rows, the sum over the two lanes of a row is the lane
  reduction from the neutral word, and the three scalar factors are splats.
-/
import proofs.«133536_j75479755260306_1_alg».proof.Proof.Gen.KernelIdeal.Value
import proofs.«133536_j75479755260306_1_alg».proof.Proof.Density
import Idealize.ShloMosaic.Lib.ValueLayout
import Idealize.ShloMosaic.PureOps.Ideal.Laws

noncomputable section

namespace Cert.KernelIdeal.BlockValue

open Cert.KernelIdeal Cert.KernelIdeal.Gen
open Idealize.ShloMosaic Idealize.ShloMosaic.ValueIdx

/-- The lane reduction of a `1048576 × 2` block from the neutral word, at row `r`, is the sum of the row's two entries. -/
theorem laneSum (src : FVec Ideal S1048576x2 .f32) (r : Fin 1048576) :
    multiReduction .add [1] S1048576 src 0x00000000#32 reduces_S1048576x2_S1048576 (.inl rfl) rfl (ix1 r)
      = ∑ k : Fin 2, src (ix2 r k) :=
  (Ideal.multiReduction_add_single src 0x00000000#32 reduces_S1048576x2_S1048576 (.inl rfl) rfl (ix1 r)).trans
    (Finset.sum_congr rfl fun k _ => congrArg src
      (funext fun a => Fin.ext (by match a with | ⟨0, _⟩ => rfl | ⟨1, _⟩ => rfl)))

/-- The centre, cast to one row and broadcast over the block's rows, reads its coordinate `k` at `(r, k)`. -/
theorem centre_apply (P1 : Vec Ideal S2 .f32) (r : Fin 1048576) (k : Fin 2) :
    broadcastTo S1048576x2 (shapeCast S1x2 P1 shapeCasts_S2_S1x2) broadcasts_S1x2_S1048576x2 (ix2 r k) = P1 (ix1 k) :=
  (broadcastTo_1b_ab_apply _ broadcasts_S1x2_S1048576x2 r k).trans
    (shapeCast_a_1a_apply P1 shapeCasts_S2_S1x2 (0 : Fin 1) k)

/-- Row `r` of the block the body's one store leaves, as a function of the two loaded vectors: the density of
    row `r` of the loaded points about the loaded centre. -/
theorem stored_apply (P0 : Vec Ideal S1048576x2 .f32) (P1 : Vec Ideal S2 .f32) (r : Fin 1048576) :
    Value.E2 (F := Ideal) P0 P1 (ix1 r) = Cert.Density.ofRow (fun k => P0 (ix2 r k)) (fun k => P1 (ix1 k)) := by
  have hrow : Value.ix2_0 (ix1 r) = ix1 r := funext fun a => by match a with | ⟨0, _⟩ => rfl
  have hsum : multiReduction (F := Ideal) .add [1] S1048576
        (mulf (subf P0 (broadcastTo S1048576x2 (shapeCast S1x2 P1 shapeCasts_S2_S1x2) broadcasts_S1x2_S1048576x2))
              (subf P0 (broadcastTo S1048576x2 (shapeCast S1x2 P1 shapeCasts_S2_S1x2) broadcasts_S1x2_S1048576x2)))
        0x00000000#32 reduces_S1048576x2_S1048576 (.inl rfl) rfl (Value.ix2_0 (ix1 r))
      = ∑ k : Fin 2, (P0 (ix2 r k) - P1 (ix1 k)) * (P0 (ix2 r k) - P1 (ix1 k)) := by
    rw [hrow]
    refine (laneSum _ r).trans (Finset.sum_congr rfl fun k _ => ?_)
    rw [mulf_apply, subf_apply, centre_apply]
  show Ideal.ofBits .f32 0x3F800000#32 * Ideal.exp (Ideal.ofBits .f32 0xBF000000#32 *
    (Ideal.ofBits .f32 0x3F0A3D71#32 * _)) = _
  rw [hsum]
  rfl

theorem zeros1 : (![0] : Fin 1 → Nat) = fun _ => 0 := funext fun a => by fin_cases a <;> rfl
theorem zeros2 : (![0, 0] : Fin 2 → Nat) = fun _ => 0 := funext fun a => by fin_cases a <;> rfl

/-- What the body leaves in the output window's buffer from the two input blocks `x0` (points) and `x1` (centre):
    row `r` holds the density of row `r` of `x0` about `x1`.  (The loads read the whole blocks; the one store writes
    the whole buffer.) -/
theorem out_apply (x0 : Vec Ideal S1048576x2 .f32) (x1 : Vec Ideal S2 .f32) (r : Fin 1048576) :
    out0_2 (F := Ideal) x0 x1 (ix1 r) = Cert.Density.ofRow (fun k => x0 (ix2 r k)) (fun k => x1 (ix1 k)) := by
  unfold out0_2
  rw [Value.canon2_eq]
  simp only [View.ld_unit_zero (S := S1048576x2) zeros2, View.ld_unit_zero (S := S2) zeros1]
  exact stored_apply x0 x1 r

end Cert.KernelIdeal.BlockValue

end
-- ==== Proof.KernelArray.lean ====
/-
  From blocks to the whole array.

  The grid has 16 points; point `t` stages rows `t·1048576 … (t+1)·1048576 − 1` of the points (both columns),
  the whole centre, and writes back rows `t·1048576 …` of the result.  So the block of points a point loads sits
  over exactly the rows its output block covers, and what it writes back is the restriction of
  `Density.ofRows` of the two argument arrays to its block.  The 16 output blocks cover every row (row `i` is in
  block `i / 1048576`), hence after the run the result array is `Density.ofRows` of the arguments.
-/
import proofs.«133536_j75479755260306_1_alg».proof.Proof.BlockDensity

noncomputable section

namespace Cert.KernelIdeal.ArrayValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three index maps over the grid: the points' block moves with the output's block along the rows and stays
    at column block 0; the centre's block never moves. -/
theorem index_facts : ∀ t : Fin cfg0.N, win0_0.index t (0 : Fin 2) = win0_2.index t (0 : Fin 1)
    ∧ win0_0.index t (1 : Fin 2) = 0
    ∧ win0_1.index t (0 : Fin 1) = 0 :=
  (by decide +kernel : ∀ t : Fin grid0.N, _)

/-- Each of the 16 row blocks is some point's output block. -/
theorem index_onto : ∀ q : Fin 16, ∃ t : Fin cfg0.N, win0_2.index t = ![q.val] :=
  (by decide +kernel : ∀ q : Fin 16, ∃ t : Fin grid0.N, win0_2.index t = ![q.val])

/-- Row `r`, column `k` of the block of points staged at `t` is the argument array's entry in row `r'`, the row
    that position `r` of the output block at `t` stands for (block index × 1048576 + `r`). -/
theorem points_block (c : Dev nD) (t : Fin cfg0.N) (r : Fin 1048576) (k : Fin 2) (r' : Fin 16777216)
    (hr : r'.val = win0_2.index t (0 : Fin 1) * 1048576 + 1 * r.val) :
    iblk m c 0 t (ix2 r k) = V m c main_arg0 (ix2 r' k) := by
  obtain ⟨e0, e1, -⟩ := index_facts t
  show V m c main_arg0 (((cfg0.win 0).blk t).view.emb (ix2 r k)) = _
  refine congrArg (V m c main_arg0) (funext fun a => Fin.ext ?_)
  match a with
  | ⟨0, _⟩ =>
    show win0_0.index t (0 : Fin 2) * 1048576 + 1 * r.val = r'.val
    omega
  | ⟨1, _⟩ =>
    show win0_0.index t (1 : Fin 2) * 2 + 1 * k.val = k.val
    omega

/-- The staged centre is the argument array itself. -/
theorem centre_block (c : Dev nD) (t : Fin cfg0.N) (k : Fin 2) :
    iblk m c 1 t (ix1 k) = V m c main_arg1 (ix1 k) := by
  obtain ⟨-, -, e2⟩ := index_facts t
  show V m c main_arg1 (((cfg0.win 1).blk t).view.emb (ix1 k)) = _
  refine congrArg (V m c main_arg1) (funext fun a => Fin.ext ?_)
  match a with
  | ⟨0, _⟩ =>
    show win0_1.index t (0 : Fin 1) * 2 + 1 * k.val = k.val
    omega

/-- What point `t` writes back is its block of the density of the argument arrays. -/
theorem flushed_eq (c : Dev nD) (t : Fin cfg0.N) :
    (dats m 0 c).flushed 2 t
      = ((cfg0.win 2).blk t).view.read (Elt Ideal) (Cert.Density.ofRows (V m c main_arg0) (V m c main_arg1)) := by
  rw [Value.flushed2]
  funext j
  obtain ⟨r, rfl⟩ : ∃ r : Fin 1048576, j = ix1 r := ⟨j 0, eq_ix1 j⟩
  obtain ⟨r', hr'⟩ : ∃ r' : Fin 16777216, ((cfg0.win 2).blk t).view.emb (ix1 r) = ix1 r' := ⟨_, eq_ix1 _⟩
  have hval : win0_2.index t (0 : Fin 1) * 1048576 + 1 * r.val = r'.val := congrArg (fun f => (f 0).val) hr'
  show out0_2 (iblk m c 0 t) (iblk m c 1 t) (ix1 r)
    = Cert.Density.ofRows (V m c main_arg0) (V m c main_arg1) (((cfg0.win 2).blk t).view.emb (ix1 r))
  rw [hr', Cert.Density.ofRows_apply]
  refine (BlockValue.out_apply (iblk m c 0 t) (iblk m c 1 t) r).trans ?_
  exact congrArg₂ Cert.Density.ofRow (funext fun k => points_block m c t r k r' hval.symm)
    (funext fun k => centre_block m c t k)

/-- A row is in point `t`'s output block iff it lies in the block's range of rows. -/
theorem mem_block (t : Fin cfg0.N) (i : S16777216.Idx) :
    i ∈ ((cfg0.win 2).blk t).view.set ↔ ∀ a : Fin 1, win0_2.index t a * S1048576.size a ≤ (i a).val
      ∧ (i a).val < win0_2.index t a * S1048576.size a + S1048576.size a := by
  show i ∈ ((View.whole main_v0).slice (win0_2.rect t)).set ↔ _
  rw [View.set_slice_whole, Rect.mem_set_unit]
  exact Iff.rfl

/-- Every row is in the output block of the point that owns row block `i / 1048576`. -/
theorem covered (i : S16777216.Idx) :
    ∃ t : Fin cfg0.N, (cfg0.win 2).flush t = true ∧ i ∈ ((cfg0.win 2).blk t).view.set := by
  have hi : (i 0).val < 16777216 := (i 0).isLt
  obtain ⟨t, ht⟩ := index_onto ⟨(i 0).val / 1048576, by omega⟩
  have q : win0_2.index t (0 : Fin 1) = (i 0).val / 1048576 := congrFun ht 0
  refine ⟨t, flush0_2 t, ?_⟩
  rw [mem_block]
  intro a
  match a with
  | ⟨0, _⟩ =>
    show win0_2.index t (0 : Fin 1) * 1048576 ≤ (i 0).val ∧ (i 0).val < win0_2.index t (0 : Fin 1) * 1048576 + 1048576
    omega

/-- After the run the result array is the density of every row of the argument arrays. -/
theorem final (c : Dev nD) :
    (dats m 0 c).arrAt 2 cfg0.N
      = Cert.Density.ofRows (m ((c : Thread nD τ).loc main_arg0)) (m ((c : Thread nD τ).loc main_arg1)) :=
  (dats m 0 c).arrAt_eq_of_cover 2 (Cert.Density.ofRows (V m c main_arg0) (V m c main_arg1))
    (fun t _ => flushed_eq m c t) covered

/-- The kernel's run: it terminates without a fault, the result array holds the density of every row, the
    arguments are unchanged. -/
theorem run : θ_run defs (onTc (τ := τ) (main (F := Ideal))) ⟨m, fun _ => 0, ρ⟩ fun r => ∀ c : Dev nD,
      r.2.mem ((c : Thread nD τ).loc main_v0)
        = Cert.Density.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefDensity.lean ====
/-
  The reference computes `Density.ofRows`.

  Read one operation at a time, entry `i` of the reference's result is
      one · exp (negHalf · (invVar · (0 + ∑ₖ d(i,k) · d(i,k)))),   d(i,k) = x(i,k) − mu(k),
  where `mu` reaches position `(i,k)` through two broadcasts ([2] → [1,2] → [16777216,2]) that only copy it
  along the rows.  The initial value of the host's sum is the zero word, which denotes `0`, and `0 + s = s` on
  the extended reals.
-/
import proofs.«133536_j75479755260306_1_alg».proof.Proof.Gen.ReferenceIdeal.Read
import proofs.«133536_j75479755260306_1_alg».proof.Proof.Density

noncomputable section

namespace Cert.ReferenceIdeal.RefValue

open Cert.ReferenceIdeal Cert.ReferenceIdeal.Gen Cert.ReferenceIdeal.Read
open Idealize.ShloMosaic Idealize.ShloMosaic.ValueIdx

/-- The summand `k` of row `r`'s sum sits at position `(r, k)` of the array of squared differences. -/
theorem idx_point (r : Fin 16777216) (k : Fin 2) : idx_main_v4 (ix1 r) k = ix2 r k :=
  funext fun a => Fin.ext (by match a with | ⟨0, _⟩ => rfl | ⟨1, _⟩ => rfl)

/-- Through the two broadcasts, position `(r, k)` reads the centre's coordinate `k`. -/
theorem idx_centre (r : Fin 16777216) (k : Fin 2) : idx_main_v0 (idx_main_v1 (ix2 r k)) = ix1 k :=
  funext fun a => Fin.ext (by match a with | ⟨0, _⟩ => rfl)

/-- The reference's result, as the last stage of its run, is the density of every row. -/
theorem result_eq (x0 : (⟨S16777216x2, .f32⟩ : BufTy).Contents (Elt Ideal)) (x1 : (⟨S2, .f32⟩ : BufTy).Contents (Elt Ideal)) :
    val_main_v11 (F := Ideal) x0 x1 = Cert.Density.ofRows x0 x1 := by
  funext i
  obtain ⟨r, rfl⟩ : ∃ r : Fin 16777216, i = ix1 r := ⟨i 0, eq_ix1 i⟩
  have hsq : ∀ k : Fin 2, val_main_v3 (F := Ideal) x0 x1 (idx_main_v4 (ix1 r) k)
      = (x0 (ix2 r k) - x1 (ix1 k)) * (x0 (ix2 r k) - x1 (ix1 k)) := by
    intro k
    rw [idx_point, val_main_v3_apply, val_main_v2_apply, val_main_v1_apply, val_main_v0_apply, idx_centre]
    rfl
  rw [val_main_v11_apply, val_main_v10_apply, val_main_cst_2_apply, val_main_v9_apply, val_main_v8_apply,
    val_main_v7_apply, val_main_cst_1_apply, val_main_v6_apply, val_main_v5_apply, val_main_cst_0_apply,
    val_main_v4_apply, val_main_cst_apply, Cert.Density.ofRows_apply]
  simp only [hsq, Ideal.mulf_def, Ideal.hostUnary_exp_def, Ideal.ofBits_def, Ideal.ofBits_zero_f32, zero_add]
  rfl

end Cert.ReferenceIdeal.RefValue

end
-- ==== Proof.lean ====
/-
  Kernel and reference compute the same array: the unnormalised isotropic Gaussian density of 16777216 points
  of the plane about one centre,
      out(i) = one · exp (negHalf · (invVar · ((x(i,0) − mu(0))² + (x(i,1) − mu(1))²))).

  The kernel tiles the rows into 16 blocks of 1048576 and computes each block with vector operations (the sum
  of the two squares a lane reduction); the reference computes the whole array at once with host operations
  (the sum a reduce over the second axis, from the initial value 0).  Over the extended reals both perform the
  same subtraction, squaring, two-term sum, three products and exponential in the same order, with the same
  three float words, so no law of arithmetic beyond `0 + s = s` is needed and the finiteness of the inputs is
  never used.  `Density` states the common function; `RefDensity` reads the reference's run as it,
  `BlockDensity` reads what the kernel body stores at one grid point as it on that point's rows, and
  `KernelArray` puts the 16 blocks together.

  The three frame claims are the programs' runs with the results forgotten.  The idealized kernel is the
  kernel's own text read over the extended reals (no operation was rewritten), so that claim is `True`.
-/
import proofs.«133536_j75479755260306_1_alg».proof.Defs
import proofs.«133536_j75479755260306_1_alg».proof.Proof.Gen.Kernel
import proofs.«133536_j75479755260306_1_alg».proof.Proof.Gen.Kernel.Skeleton
import proofs.«133536_j75479755260306_1_alg».proof.Proof.Gen.Kernel.Launch
import proofs.«133536_j75479755260306_1_alg».proof.Proof.Gen.Kernel.Points
import proofs.«133536_j75479755260306_1_alg».proof.Proof.Gen.Kernel.Frame
import proofs.«133536_j75479755260306_1_alg».proof.Proof.Gen.KernelIdeal
import proofs.«133536_j75479755260306_1_alg».proof.Proof.Gen.KernelIdeal.Skeleton
import proofs.«133536_j75479755260306_1_alg».proof.Proof.Gen.KernelIdeal.Launch
import proofs.«133536_j75479755260306_1_alg».proof.Proof.Gen.KernelIdeal.Points
import proofs.«133536_j75479755260306_1_alg».proof.Proof.Gen.KernelIdeal.Frame
import proofs.«133536_j75479755260306_1_alg».proof.Proof.Gen.ReferenceIdeal
import proofs.«133536_j75479755260306_1_alg».proof.Proof.Gen.Pre_finite_inputs
import proofs.«133536_j75479755260306_1_alg».proof.Proof.Gen.KernelIdeal.Value
import proofs.«133536_j75479755260306_1_alg».proof.Proof.Gen.ReferenceIdeal.Run
import proofs.«133536_j75479755260306_1_alg».proof.Proof.Gen.ReferenceIdeal.Read
import proofs.«133536_j75479755260306_1_alg».proof.Proof.KernelArray
import proofs.«133536_j75479755260306_1_alg».proof.Proof.RefDensity
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the points and the centre, both programs end with the density of every row:
    the kernel by its blocks (`ArrayValue.run`), the reference by its run read stage by stage (`RefValue.result_eq`). -/
theorem algebraic : Cert.algebraic_KernelIdeal_ReferenceIdeal := by
  intro m ρ m' ρ' _ hagree
  refine ⟨fun c => Cert.Density.ofRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
